-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x1024 .f32) (main_arg1 : FVec F S1024x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1024x256, .f32⟩
  | .local _ .vmem, ⟨4, _⟩ => ⟨S2048x256, .f32⟩
  | .local _ .vmem, ⟨5, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x4096.size a
  hwx0_1 : ∀ i : grid0.Coords, EltTy.bits .f32 = 32 ∨ (Rect.block (s := S1024x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x4096.size a
  hwx0_2 : ∀ i : grid0.Coords, EltTy.bits .f32 = 32 ∨ (Rect.block (s := S4096x4096) S2048x256.size (cc0_transform_2 i) (hinb0_2 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.MatProd.lean ====
/-
  The common value of both programs: the product of a 4096 × 1024 matrix `a` and a 1024 × 4096 matrix `b`
  over the extended reals, entry by entry: (a · b)[r, c] = Σ_{k < 1024} a[r, k] · b[k, c].
  No program is mentioned here; indices are built from their coordinates.
-/
import Idealize.ShloMosaic.PureOps.Ideal
import Idealize.ShloMosaic.Lib.ValueIdx

noncomputable section

namespace Cert.MatProd

open Idealize.ShloMosaic Idealize.ShloMosaic.ValueIdx

/-- Entry (r, c) of the product: the sum over the shared axis of the row-r entries of `a` times the column-c entries of `b`. -/
def matProd (a : (⟨2, ![4096, 1024]⟩ : Shape).Idx → EReal) (b : (⟨2, ![1024, 4096]⟩ : Shape).Idx → EReal) :
    (⟨2, ![4096, 4096]⟩ : Shape).Idx → EReal :=
  fun i => ∑ k : Fin 1024, a (ix2 (i 0) k) * b (ix2 k (i 1))

theorem matProd_apply (a : (⟨2, ![4096, 1024]⟩ : Shape).Idx → EReal) (b : (⟨2, ![1024, 4096]⟩ : Shape).Idx → EReal)
    (r c : Fin 4096) : matProd a b (ix2 r c) = ∑ k : Fin 1024, a (ix2 r k) * b (ix2 k c) := rfl

end Cert.MatProd

end
-- ==== Proof.RefProd.lean ====
/-
  The reference's one operation, a dot_general contracting axis 1 of the left operand with axis 0 of the right,
  read entry by entry at the ideal values: it is the matrix product `matProd` of its two operands.
-/
import proofs.«164104_j38276748542447_2_alg».proof.Proof.Gen.ReferenceIdeal.Read
import proofs.«164104_j38276748542447_2_alg».proof.Proof.MatProd

noncomputable section

namespace Cert.ReferenceIdeal.RefValue

open Cert.ReferenceIdeal Cert.ReferenceIdeal.Gen Idealize.ShloMosaic Idealize.ShloMosaic.ValueIdx

/-- The left operand's index at output entry `i` and contraction position `k` is (row of i, k). -/
theorem lidx_eq (i : S4096x4096.Idx) (k : Fin 1024) : Read.lidx_main_v0 i k = ix2 (i 0) k :=
  funext fun a => Fin.ext (by match a with | ⟨0, _⟩ => rfl | ⟨1, _⟩ => rfl)

/-- The right operand's index there is (k, column of i). -/
theorem ridx_eq (i : S4096x4096.Idx) (k : Fin 1024) : Read.ridx_main_v0 i k = ix2 k (i 1) :=
  funext fun a => Fin.ext (by match a with | ⟨0, _⟩ => rfl | ⟨1, _⟩ => rfl)

/-- The reference's result is the matrix product of its arguments. -/
theorem dot_eq_matProd (a : (⟨S4096x1024, .f32⟩ : BufTy).Contents (Elt Ideal)) (b : (⟨S1024x4096, .f32⟩ : BufTy).Contents (Elt Ideal)) :
    Read.val_main_v0 (F := Ideal) a b = Cert.MatProd.matProd a b := by
  funext i
  rw [Read.val_main_v0_apply]
  unfold Cert.MatProd.matProd
  refine Finset.sum_congr rfl fun k _ => ?_
  rw [lidx_eq, ridx_eq]
  rfl

end Cert.ReferenceIdeal.RefValue

end
-- ==== Proof.BlockProd.lean ====
/-
  What the kernel's body computes from one pair of loaded blocks, read entry by entry at the ideal values.
  The body narrows both blocks to bf16 (no change of value at the ideal instance), multiplies the 2048 × 1024 block by
  the 1024 × 256 block into a zero accumulator, and stores the 2048 × 256 result: entry (r, q) is
  Σ_{k < 1024} x0[r, k] · x1[k, q].
-/
import proofs.«164104_j38276748542447_2_alg».proof.Proof.Gen.KernelIdeal.Skeleton
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- Axis 0 of the left operand's index is the output entry's row. -/
theorem lhs_row (j : S2048x256.Idx) (p : dot_S2048x1024_S1024x256_S2048x256_1_0_0_1_n_n.contr.Idx) :
    (dot_S2048x1024_S1024x256_S2048x256_1_0_0_1_n_n.lhsIdx j p 0).val = (j 0).val := by
  unfold DotDims.lhsIdx
  rw [dif_neg (show ¬(0 : Fin S2048x1024.rank) ∈ dot_S2048x1024_S1024x256_S2048x256_1_0_0_1_n_n.lhsBatch by decide),
    dif_pos (show (0 : Fin S2048x1024.rank) ∈ dot_S2048x1024_S1024x256_S2048x256_1_0_0_1_n_n.lhsNonContracting by decide)]
  rfl

/-- Axis 1 of the left operand's index is the contraction position. -/
theorem lhs_contr (j : S2048x256.Idx) (p : dot_S2048x1024_S1024x256_S2048x256_1_0_0_1_n_n.contr.Idx) :
    (dot_S2048x1024_S1024x256_S2048x256_1_0_0_1_n_n.lhsIdx j p 1).val = (p ⟨0, by decide⟩).val :=
  dot_S2048x1024_S1024x256_S2048x256_1_0_0_1_n_n.lhsIdx_val_of_single rfl j p

/-- Axis 0 of the right operand's index is the contraction position. -/
theorem rhs_contr (j : S2048x256.Idx) (p : dot_S2048x1024_S1024x256_S2048x256_1_0_0_1_n_n.contr.Idx) :
    (dot_S2048x1024_S1024x256_S2048x256_1_0_0_1_n_n.rhsIdx j p 0).val = (p ⟨0, by decide⟩).val :=
  dot_S2048x1024_S1024x256_S2048x256_1_0_0_1_n_n.rhsIdx_val_of_single rfl j p

/-- Axis 1 of the right operand's index is the output entry's column. -/
theorem rhs_col (j : S2048x256.Idx) (p : dot_S2048x1024_S1024x256_S2048x256_1_0_0_1_n_n.contr.Idx) :
    (dot_S2048x1024_S1024x256_S2048x256_1_0_0_1_n_n.rhsIdx j p 1).val = (j 1).val := by
  unfold DotDims.rhsIdx
  rw [dif_neg (show ¬(1 : Fin S1024x256.rank) ∈ dot_S2048x1024_S1024x256_S2048x256_1_0_0_1_n_n.rhsBatch by decide),
    dif_pos (show (1 : Fin S1024x256.rank) ∈ dot_S2048x1024_S1024x256_S2048x256_1_0_0_1_n_n.rhsNonContracting by decide)]
  rfl

/-- The stored block, entry (r, q): the sum over k of x0[r, k] · x1[k, q]. -/
theorem blockProd_apply (x0 : Vec Ideal S2048x1024 .f32) (x1 : Vec Ideal S1024x256 .f32) (r : Fin 2048) (q : Fin 256) :
    k0_pay1 (F := Ideal) x0 x1 (ix2 r q) = ∑ k : Fin 1024, x0 (ix2 r k) * x1 (ix2 k q) := by
  unfold k0_pay1
  refine (Ideal.matmul_constant_zero_apply dot_S2048x1024_S1024x256_S2048x256_1_0_0_1_n_n none
    (truncf .bf16 x0 bitsLt_bf16_f32) (truncf .bf16 x1 bitsLt_bf16_f32) (ix2 r q)).trans ?_
  rw [← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r q)
      ((contrEquiv1 dot_S2048x1024_S1024x256_S2048x256_1_0_0_1_n_n 1024 rfl rfl).symm k) = ix2 r k :=
    funext fun a => Fin.ext (by
      match a with
      | ⟨0, _⟩ => exact lhs_row _ _
      | ⟨1, _⟩ => exact (lhs_contr _ _).trans hk)
  have er : dot_S2048x1024_S1024x256_S2048x256_1_0_0_1_n_n.rhsIdx (ix2 r q)
      ((contrEquiv1 dot_S2048x1024_S1024x256_S2048x256_1_0_0_1_n_n 1024 rfl rfl).symm k) = ix2 k q :=
    funext fun a => Fin.ext (by
      match a with
      | ⟨0, _⟩ => exact (rhs_contr _ _).trans hk
      | ⟨1, _⟩ => exact rhs_col _ _)
  show x0 _ * x1 _ = _
  rw [el, er]

end Cert.KernelIdeal.BlockValue

end
-- ==== Proof.ProdArray.lean ====
/-
  From blocks to the whole array. The grid has 2 × 16 points; at point (p, q) the kernel reads rows
  [2048·p, 2048·p + 2048) of the left matrix (all 1024 columns), columns [256·q, 256·q + 256) of the right matrix
  (all 1024 rows), and writes back the 2048 × 256 block of the output at block position (p, q). Entry (r, s) of that block is
  Σ_k A[2048·p + r, k] · B[k, 256·q + s], which is entry (2048·p + r, 256·q + s) of the product A · B. The 32 blocks
  tile the 4096 × 4096 output, so after the run the output array is the product of the two argument arrays.
-/
import proofs.«164104_j38276748542447_2_alg».proof.Proof.Gen.KernelIdeal.Value
import proofs.«164104_j38276748542447_2_alg».proof.Proof.BlockProd
import proofs.«164104_j38276748542447_2_alg».proof.Proof.MatProd

noncomputable section

namespace Cert.KernelIdeal.ArrayValue

open Cert.KernelIdeal Cert.KernelIdeal.Gen Idealize.ShloMosaic Idealize.ShloMosaic.TcCoe Idealize.SL.Sem
open Idealize.ShloMosaic.ValueIdx Cert.MatProd
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- A block pair that holds the right rows of `A` and the right columns of `B` multiplies to the matching entry of `A · B`:
    if row `j 0` of `x0` is row `i 0` of `A` and column `j 1` of `x1` is column `i 1` of `B`, then entry `j` of the
    block product is entry `i` of the whole product. -/
theorem block_entry (A : (⟨2, ![4096, 1024]⟩ : Shape).Idx → EReal) (B : (⟨2, ![1024, 4096]⟩ : Shape).Idx → EReal)
    (x0 : Vec Ideal S2048x1024 .f32) (x1 : Vec Ideal S1024x256 .f32) (i : S4096x4096.Idx) (j : S2048x256.Idx)
    (h0 : ∀ k : Fin 1024, x0 (ix2 (j 0) k) = A (ix2 (i 0) k))
    (h1 : ∀ k : Fin 1024, x1 (ix2 k (j 1)) = B (ix2 k (i 1))) :
    k0_pay1 (F := Ideal) x0 x1 j = matProd A B i := by
  obtain ⟨r, q, rfl⟩ : ∃ (r : Fin 2048) (q : Fin 256), j = ix2 r q := ⟨j 0, j 1, eq_ix2 j⟩
  rw [BlockValue.blockProd_apply]
  unfold matProd
  exact Finset.sum_congr rfl fun k _ => by rw [← h0 k, ← h1 k]

/-- The three index maps over the 32 grid points: the left window follows the output's block row and stays at block
    column 0; the right window stays at block row 0 and follows the output's block column; the output's block
    position is within 2 × 16. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 1
    ∧ win0_2.index t (1 : Fin 2) ≤ 15 :=
  (by decide +kernel : ∀ t : Fin grid0.N, _)

/-- Every block position of the 2 × 16 tiling is some grid point's. -/
theorem idx_onto : ∀ (q0 : Fin 2) (q1 : Fin 16), ∃ t : Fin cfg0.N, win0_2.index t = ![q0.val, q1.val] :=
  (by decide +kernel : ∀ (q0 : Fin 2) (q1 : Fin 16), ∃ t : Fin grid0.N, win0_2.index t = ![q0.val, q1.val])

/-- What point `t` writes back is block `t` of the product of the argument arrays. -/
theorem flushed_eq (c : Dev nD) (t : Fin cfg0.N) :
    (dats m 0 c).flushed 2 t = ((cfg0.win 2).blk t).view.read (Elt Ideal) (matProd (V m c main_arg0) (V m c main_arg1)) := by
  rw [Value.flushed2]
  unfold out0_2
  rw [View.canon_unit_zero origin_eq]
  simp only [View.ld_unit_zero (S := S2048x1024) origin_eq, View.ld_unit_zero (S := S1024x256) origin_eq]
  obtain ⟨e0, e1, e2, e3, e4, e5⟩ := idx_facts t
  funext j
  show k0_pay1 (F := Ideal) (iblk m c 0 t) (iblk m c 1 t) j
    = matProd (V m c main_arg0) (V m c main_arg1) (((cfg0.win 2).blk t).view.emb j)
  refine block_entry (V m c main_arg0) (V m c main_arg1) (iblk m c 0 t) (iblk m c 1 t) (((cfg0.win 2).blk t).view.emb j) j
    (fun k => ?_) (fun k => ?_)
  · show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * k.val = k.val; omega
  · show V m c main_arg1 (((cfg0.win 1).blk t).view.emb (ix2 k (j 1))) = V m c main_arg1 (ix2 k ((((cfg0.win 2).blk t).view.emb j) 1))
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 256 + 1 * (j 1).val = win0_2.index t (1 : Fin 2) * 256 + 1 * (j 1).val; omega

/-- An entry of the output is in point `t`'s block iff each coordinate lies in the block's range on its axis. -/
theorem mem_blk (t : Fin cfg0.N) (i : S4096x4096.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every entry (r, s) of the output lies in the block at position (r / 2048, s / 256). -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 2048, by omega⟩ ⟨(i 1).val / 256, by omega⟩
  have q0 : win0_2.index t (0 : Fin 2) = (i 0).val / 2048 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After the run the output array is the product of the two argument arrays. -/
theorem final (c : Dev nD) :
    (dats m 0 c).arrAt 2 cfg0.N = matProd (m ((c : Thread nD τ).loc main_arg0)) (m ((c : Thread nD τ).loc main_arg1)) :=
  (dats m 0 c).arrAt_eq_of_cover 2 (matProd (V m c main_arg0) (V m c main_arg1)) (fun t _ => flushed_eq m c t) cover

/-- The kernel's run: every weakly fair execution ends with the output at the product of the arguments, the arguments unchanged. -/
theorem run : θ_run defs (onTc (τ := τ) (main (F := Ideal))) ⟨m, fun _ => 0, ρ⟩ fun r => ∀ c : Dev nD,
      r.2.mem ((c : Thread nD τ).loc main_v0) = matProd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The kernel multiplies a 4096 × 1024 matrix A by a 1024 × 4096 matrix B block by block: over a 2 × 16 grid, point (p, q)
  multiplies the 2048-row slab p of A by the 256-column slab q of B (after narrowing both to bf16, which changes no value at
  the ideal instance) into a zero accumulator and writes the 2048 × 256 block (p, q) of the output. The reference is one
  dot_general contracting A's axis 1 with B's axis 0. Over the extended reals both results are, entry by entry,
  (A · B)[r, c] = Σ_{k < 1024} A[r, k] · B[k, c]: the blocks tile the output and every block entry is the same sum over the
  whole shared axis, so no regrouping of sums and no finiteness of the inputs is needed.
  The three frames are the generated ones (the reference's frame is its generated run with the result dropped); the ideal
  pass rewrote nothing, so `preserves` is `True`.
-/
import proofs.«164104_j38276748542447_2_alg».proof.Defs
import proofs.«164104_j38276748542447_2_alg».proof.Proof.Gen.Kernel
import proofs.«164104_j38276748542447_2_alg».proof.Proof.Gen.Kernel.Skeleton
import proofs.«164104_j38276748542447_2_alg».proof.Proof.Gen.Kernel.Launch
import proofs.«164104_j38276748542447_2_alg».proof.Proof.Gen.Kernel.Points
import proofs.«164104_j38276748542447_2_alg».proof.Proof.Gen.Kernel.Frame
import proofs.«164104_j38276748542447_2_alg».proof.Proof.Gen.KernelIdeal
import proofs.«164104_j38276748542447_2_alg».proof.Proof.Gen.KernelIdeal.Skeleton
import proofs.«164104_j38276748542447_2_alg».proof.Proof.Gen.KernelIdeal.Launch
import proofs.«164104_j38276748542447_2_alg».proof.Proof.Gen.KernelIdeal.Points
import proofs.«164104_j38276748542447_2_alg».proof.Proof.Gen.KernelIdeal.Frame
import proofs.«164104_j38276748542447_2_alg».proof.Proof.Gen.ReferenceIdeal
import proofs.«164104_j38276748542447_2_alg».proof.Proof.Gen.Pre_finite_inputs
import proofs.«164104_j38276748542447_2_alg».proof.Proof.Gen.KernelIdeal.Value
import proofs.«164104_j38276748542447_2_alg».proof.Proof.Gen.ReferenceIdeal.Run
import proofs.«164104_j38276748542447_2_alg».proof.Proof.Gen.ReferenceIdeal.Read
import proofs.«164104_j38276748542447_2_alg».proof.Proof.MatProd
import proofs.«164104_j38276748542447_2_alg».proof.Proof.RefProd
import proofs.«164104_j38276748542447_2_alg».proof.Proof.BlockProd
import proofs.«164104_j38276748542447_2_alg».proof.Proof.ProdArray
import Idealize.ShloMosaic.Adequacy
import Idealize.ShloMosaic.Init

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the output at the matrix product of the (agreeing) arguments. -/
theorem algebraic : Cert.algebraic_KernelIdeal_ReferenceIdeal := by
  intro m ρ m' ρ' _ hagree
  refine ⟨fun c => Cert.MatProd.matProd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.dot_eq_matProd, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
